-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg15 : FVec F S512x1 .f32) (main_arg16 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1 .f32 := Host.absf main_arg15
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S1 .f32 := Host.absf main_arg16
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg11 : FVec F S1024x512 .f32) (main_arg12 : FVec F S512 .f32) (main_arg13 : FVec F S512x512 .f32) (main_arg14 : FVec F S512 .f32) (main_arg15 : FVec F S512x1 .f32) (main_arg16 : FVec F S1 .f32) (main_v33 : IVec S_ 1) : IVec S_ 1 :=
  let main_v34 : FVec F S1024x512 .f32 := Host.absf main_arg11
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg12
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg13
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg14
  let main_cst_18 : FVec F S_ .f32 := constant S_ .f32 0x7F800000#32
  let main_v50 : FVec F S512 .f32 := broadcastInDim S512 ![] bcast_S_S512 main_cst_18
  fn_part3 (F := F) main_arg15 main_arg16 main_v48 main_v49 main_v50

def fn_part1 {F : FTy → Type} [FloatOps F] (main_arg8 : FVec F S512 .f32) (main_arg9 : FVec F S512x512 .f32) (main_arg10 : FVec F S512 .f32) (main_arg11 : FVec F S1024x512 .f32) (main_arg12 : FVec F S512 .f32) (main_arg13 : FVec F S512x512 .f32) (main_arg14 : FVec F S512 .f32) (main_arg15 : FVec F S512x1 .f32) (main_arg16 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg8
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg9
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg10
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : FVec F S100000x512 .f32) (main_arg1 : IVec S100000 32) (main_arg2 : IVec S100000 32) (main_arg3 : IVec S100000 32) (main_arg4 : IVec S100000 32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S1024x512 .f32) (main_arg12 : FVec F S512 .f32) (main_arg13 : FVec F S512x512 .f32) (main_arg14 : FVec F S512 .f32) (main_arg15 : FVec F S512x1 .f32) (main_arg16 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg5
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg6
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg7
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg8 main_arg9 main_arg10 main_arg11 main_arg12 main_arg13 main_arg14 main_arg15 main_arg16 main_v13 main_v16
-- ==== Kernel.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x512 : Shape := ⟨2, ![1, 512]⟩
abbrev S1000x512 : Shape := ⟨2, ![1000, 512]⟩
abbrev S1x1 : Shape := ⟨2, ![1, 1]⟩
abbrev S200000 : Shape := ⟨1, ![200000]⟩
abbrev S_ : Shape := ⟨0, ![]⟩
abbrev S200000x1 : Shape := ⟨2, ![200000, 1]⟩
abbrev S200000x512 : Shape := ⟨2, ![200000, 512]⟩
abbrev S2000x512 : Shape := ⟨2, ![2000, 512]⟩
abbrev S2000x1 : Shape := ⟨2, ![2000, 1]⟩

abbrev nBuf : Space → Nat
  | .hbm => 57
  | .vmem => 23
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S100000, .i32⟩
  | .hbm, ⟨3, _⟩ => ⟨S100000, .i32⟩
  | .hbm, ⟨4, _⟩ => ⟨S100000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S1024x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x1, .f32⟩
  | .hbm, ⟨16, _⟩ => ⟨S1, .f32⟩
  | .hbm, ⟨17, _⟩ => ⟨S512x512, .bf16⟩
  | .hbm, ⟨18, _⟩ => ⟨S512x512, .bf16⟩
  | .hbm, ⟨19, _⟩ => ⟨S512x512, .bf16⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S100000x512, .bf16⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .bf16⟩
  | .hbm, ⟨28, _⟩ => ⟨S1x512, .f32⟩
  | .hbm, ⟨29, _⟩ => ⟨S512x512, .bf16⟩
  | .hbm, ⟨30, _⟩ => ⟨S1x512, .f32⟩
  | .hbm, ⟨31, _⟩ => ⟨S512x1, .bf16⟩
  | .hbm, ⟨32, _⟩ => ⟨S1x1, .f32⟩
  | .hbm, ⟨33, _⟩ => ⟨S200000, .i32⟩
  | .hbm, ⟨34, _⟩ => ⟨S200000, .i32⟩
  | .hbm, ⟨35, _⟩ => ⟨S_, .i32⟩
  | .hbm, ⟨36, _⟩ => ⟨S200000, .i32⟩
  | .hbm, ⟨37, _⟩ => ⟨S200000, .i1⟩
  | .hbm, ⟨38, _⟩ => ⟨S_, .i32⟩
  | .hbm, ⟨39, _⟩ => ⟨S200000, .i32⟩
  | .hbm, ⟨40, _⟩ => ⟨S200000, .i32⟩
  | .hbm, ⟨41, _⟩ => ⟨S200000, .i32⟩
  | .hbm, ⟨42, _⟩ => ⟨S200000x1, .i32⟩
  | .hbm, ⟨43, _⟩ => ⟨S200000x512, .bf16⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x512, .bf16⟩
  | .hbm, ⟨53, _⟩ => ⟨S200000x1, .f32⟩
  | .hbm, ⟨54, _⟩ => ⟨S200000, .f32⟩
  | .hbm, ⟨55, _⟩ => ⟨S100000, .f32⟩
  | .hbm, ⟨56, _⟩ => ⟨S100000, .f32⟩
  | .local _ .vmem, ⟨0, _⟩ => ⟨S1000x512, .f32⟩
  | .local _ .vmem, ⟨1, _⟩ => ⟨S1000x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S1000x512, .bf16⟩
  | .local _ .vmem, ⟨9, _⟩ => ⟨S1000x512, .bf16⟩
  | .local _ .vmem, ⟨10, _⟩ => ⟨S2000x512, .bf16⟩
  | .local _ .vmem, ⟨11, _⟩ => ⟨S2000x512, .bf16⟩
  | .local _ .vmem, ⟨12, _⟩ => ⟨S2000x512, .bf16⟩
  | .local _ .vmem, ⟨13, _⟩ => ⟨S2000x512, .bf16⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S512x512, .bf16⟩
  | .local _ .vmem, ⟨18, _⟩ => ⟨S1x512, .f32⟩
  | .local _ .vmem, ⟨19, _⟩ => ⟨S512x1, .bf16⟩
  | .local _ .vmem, ⟨20, _⟩ => ⟨S1x1, .f32⟩
  | .local _ .vmem, ⟨21, _⟩ => ⟨S2000x1, .f32⟩
  | .local _ .vmem, ⟨22, _⟩ => ⟨S2000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  packedbf16_S1000x512_S1000x512_0_0 : (Rect.unit (s := S1000x512) ![0, 0] S1000x512.size inb_S1000x512_S1000x512_0_0).PackedRows (EltTy.packing .bf16)
  slices_S1024x512_S512x512_0_0 : S1024x512.Slices ![0, 0] S512x512
  slices_S1024x512_S512x512_512_0 : S1024x512.Slices ![512, 0] S512x512
  shapeCasts_S1_S1x1 : S1.ShapeCasts S1x1
  concatenates_S100000_S100000_S200000_d0 : Shape.Concatenates [S100000, S100000] S200000 0
  bcast_S_S200000 : S_.BroadcastsInDim S200000 (![] : Fin 0 → Fin S200000.rank)
  bcast_S200000_S200000x1_0 : S200000.BroadcastsInDim S200000x1 (![0] : Fin 1 → Fin S200000x1.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  broadcasts_S1x512_S2000x512 : S1x512.Broadcasts S2000x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  slices_S200000_S100000_0 : S200000.Slices ![0] S100000
  slices_S200000_S100000_100000 : S200000.Slices ![100000] S100000
  dot_S1000x512_S512x512_S1000x512_1_0_0_1_n_n_wf : DotDims.WF S1000x512 S512x512 S1000x512 [1] [0] [0] [1] [] []
  gather_S100000x512_S200000x1_S200000x512_1_0_n_n_0_1_1512_wf : GatherDims.WF S100000x512 S200000x1 S200000x512 [1] [0] [] [0] [] 1 ![1, 512]
  dot_S2000x512_S512x512_S2000x512_1_0_0_1_n_n_wf : DotDims.WF S2000x512 S512x512 S2000x512 [1] [0] [0] [1] [] []
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x512.size a ≤ S100000x512.size a
  hwx0_7 : ∀ i : grid0.Coords, EltTy.bits .bf16 = 32 ∨ (Rect.block (s := S100000x512) S1000x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S200000x512.size a
  hwx1_0 : ∀ i : grid1.Coords, EltTy.bits .bf16 = 32 ∨ (Rect.block (s := S200000x512) S2000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S200000x512.size a
  hwx1_1 : ∀ i : grid1.Coords, EltTy.bits .bf16 = 32 ∨ (Rect.block (s := S200000x512) S2000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S512x1.size a
  hwx1_7 : ∀ i : grid1.Coords, EltTy.bits .bf16 = 32 ∨ (Rect.block (s := S512x1) S512x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S200000x1.size a
  hwx1_9 : ∀ i : grid1.Coords, EltTy.bits .f32 = 32 ∨ (Rect.block (s := S200000x1) S2000x1.size (cc1_transform_9 i) (hinb1_9 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S100000x512_S200000x1_S200000x512_1_0_n_n_0_1_1512 : GatherDims S100000x512 S200000x1 S200000x512 where
  offsetDims := [1]
  collapsedSliceDims := [0]
  operandBatchingDims := []
  startIndicesBatchingDims := []
  startIndexMap := [0]
  indexVectorDim := 1
  sliceSizes := ![1, 512]
  wf := gather_S100000x512_S200000x1_S200000x512_1_0_n_n_0_1_1512_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1000x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S512x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x512 : Shape := ⟨2, ![1, 512]⟩
abbrev S_ : Shape := ⟨0, ![]⟩
abbrev S100000x1 : Shape := ⟨2, ![100000, 1]⟩
abbrev S100000x1024 : Shape := ⟨2, ![100000, 1024]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S100000, .i32⟩
  | .hbm, ⟨3, _⟩ => ⟨S100000, .i32⟩
  | .hbm, ⟨4, _⟩ => ⟨S100000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S1024x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x1, .f32⟩
  | .hbm, ⟨16, _⟩ => ⟨S1, .f32⟩
  | .hbm, ⟨17, _⟩ => ⟨S100000x512, .f32⟩
  | .hbm, ⟨18, _⟩ => ⟨S1x512, .f32⟩
  | .hbm, ⟨19, _⟩ => ⟨S100000x512, .f32⟩
  | .hbm, ⟨20, _⟩ => ⟨S100000x512, .f32⟩
  | .hbm, ⟨21, _⟩ => ⟨S_, .f32⟩
  | .hbm, ⟨22, _⟩ => ⟨S100000x512, .f32⟩
  | .hbm, ⟨23, _⟩ => ⟨S100000x512, .f32⟩
  | .hbm, ⟨24, _⟩ => ⟨S100000x512, .f32⟩
  | .hbm, ⟨25, _⟩ => ⟨S1x512, .f32⟩
  | .hbm, ⟨26, _⟩ => ⟨S100000x512, .f32⟩
  | .hbm, ⟨27, _⟩ => ⟨S100000x512, .f32⟩
  | .hbm, ⟨28, _⟩ => ⟨S_, .f32⟩
  | .hbm, ⟨29, _⟩ => ⟨S100000x512, .f32⟩
  | .hbm, ⟨30, _⟩ => ⟨S100000x512, .f32⟩
  | .hbm, ⟨31, _⟩ => ⟨S100000x512, .f32⟩
  | .hbm, ⟨32, _⟩ => ⟨S100000x512, .f32⟩
  | .hbm, ⟨33, _⟩ => ⟨S1x512, .f32⟩
  | .hbm, ⟨34, _⟩ => ⟨S100000x512, .f32⟩
  | .hbm, ⟨35, _⟩ => ⟨S100000x512, .f32⟩
  | .hbm, ⟨36, _⟩ => ⟨S_, .f32⟩
  | .hbm, ⟨37, _⟩ => ⟨S100000x512, .f32⟩
  | .hbm, ⟨38, _⟩ => ⟨S100000x512, .f32⟩
  | .hbm, ⟨39, _⟩ => ⟨S100000x512, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000x512, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S100000x512, .f32⟩
  | .hbm, ⟨58, _⟩ => ⟨S100000x1024, .f32⟩
  | .hbm, ⟨59, _⟩ => ⟨S_, .i32⟩
  | .hbm, ⟨60, _⟩ => ⟨S100000, .i32⟩
  | .hbm, ⟨61, _⟩ => ⟨S100000, .i1⟩
  | .hbm, ⟨62, _⟩ => ⟨S_, .i32⟩
  | .hbm, ⟨63, _⟩ => ⟨S100000, .i32⟩
  | .hbm, ⟨64, _⟩ => ⟨S100000, .i32⟩
  | .hbm, ⟨65, _⟩ => ⟨S100000, .i32⟩
  | .hbm, ⟨66, _⟩ => ⟨S100000x1, .i32⟩
  | .hbm, ⟨67, _⟩ => ⟨S100000x512, .f32⟩
  | .hbm, ⟨68, _⟩ => ⟨S_, .i32⟩
  | .hbm, ⟨69, _⟩ => ⟨S100000, .i32⟩
  | .hbm, ⟨70, _⟩ => ⟨S100000, .i1⟩
  | .hbm, ⟨71, _⟩ => ⟨S_, .i32⟩
  | .hbm, ⟨72, _⟩ => ⟨S100000, .i32⟩
  | .hbm, ⟨73, _⟩ => ⟨S100000, .i32⟩
  | .hbm, ⟨74, _⟩ => ⟨S100000, .i32⟩
  | .hbm, ⟨75, _⟩ => ⟨S100000x1, .i32⟩
  | .hbm, ⟨76, _⟩ => ⟨S100000x512, .f32⟩
  | .hbm, ⟨77, _⟩ => ⟨S100000x1024, .f32⟩
  | .hbm, ⟨78, _⟩ => ⟨S100000x512, .f32⟩
  | .hbm, ⟨79, _⟩ => ⟨S1x512, .f32⟩
  | .hbm, ⟨80, _⟩ => ⟨S100000x512, .f32⟩
  | .hbm, ⟨81, _⟩ => ⟨S100000x512, .f32⟩
  | .hbm, ⟨82, _⟩ => ⟨S_, .f32⟩
  | .hbm, ⟨83, _⟩ => ⟨S100000x512, .f32⟩
  | .hbm, ⟨84, _⟩ => ⟨S100000x512, .f32⟩
  | .hbm, ⟨85, _⟩ => ⟨S100000x512, .f32⟩
  | .hbm, ⟨86, _⟩ => ⟨S1x512, .f32⟩
  | .hbm, ⟨87, _⟩ => ⟨S100000x512, .f32⟩
  | .hbm, ⟨88, _⟩ => ⟨S100000x512, .f32⟩
  | .hbm, ⟨89, _⟩ => ⟨S_, .f32⟩
  | .hbm, ⟨90, _⟩ => ⟨S100000x512, .f32⟩
  | .hbm, ⟨91, _⟩ => ⟨S100000x512, .f32⟩
  | .hbm, ⟨92, _⟩ => ⟨S100000x1, .f32⟩
  | .hbm, ⟨93, _⟩ => ⟨S1x1, .f32⟩
  | .hbm, ⟨94, _⟩ => ⟨S100000x1, .f32⟩
  | .hbm, ⟨95, _⟩ => ⟨S100000x1, .f32⟩
  | .hbm, ⟨96, _⟩ => ⟨S100000, .f32⟩
  | .hbm, ⟨97, _⟩ => ⟨S100000x512, .f32⟩
  | .hbm, ⟨98, _⟩ => ⟨S1x512, .f32⟩
  | .hbm, ⟨99, _⟩ => ⟨S100000x512, .f32⟩
  | .hbm, ⟨100, _⟩ => ⟨S100000x512, .f32⟩
  | .hbm, ⟨101, _⟩ => ⟨S_, .f32⟩
  | .hbm, ⟨102, _⟩ => ⟨S100000x512, .f32⟩
  | .hbm, ⟨103, _⟩ => ⟨S100000x512, .f32⟩
  | .hbm, ⟨104, _⟩ => ⟨S100000x512, .f32⟩
  | .hbm, ⟨105, _⟩ => ⟨S1x512, .f32⟩
  | .hbm, ⟨106, _⟩ => ⟨S100000x512, .f32⟩
  | .hbm, ⟨107, _⟩ => ⟨S100000x512, .f32⟩
  | .hbm, ⟨108, _⟩ => ⟨S_, .f32⟩
  | .hbm, ⟨109, _⟩ => ⟨S100000x512, .f32⟩
  | .hbm, ⟨110, _⟩ => ⟨S100000x512, .f32⟩
  | .hbm, ⟨111, _⟩ => ⟨S100000x1, .f32⟩
  | .hbm, ⟨112, _⟩ => ⟨S1x1, .f32⟩
  | .hbm, ⟨113, _⟩ => ⟨S100000x1, .f32⟩
  | .hbm, ⟨114, _⟩ => ⟨S100000x1, .f32⟩
  | .hbm, ⟨115, _⟩ => ⟨S100000, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call2_cst : Ref sig .tc := ⟨.hbm, 36, rfl⟩
abbrev main_call2_v0 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_1 : Ref sig .tc := ⟨.hbm, 49, rfl⟩
abbrev main_v24 : Ref sig .tc := ⟨.hbm, 50, rfl⟩
abbrev main_v25 : Ref sig .tc := ⟨.hbm, 51, rfl⟩
abbrev main_c_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_3 : Ref sig .tc := ⟨.hbm, 59, rfl⟩
abbrev main_v32 : Ref sig .tc := ⟨.hbm, 60, rfl⟩
abbrev main_v33 : Ref sig .tc := ⟨.hbm, 61, rfl⟩
abbrev main_c_4 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_5 : Ref sig .tc := ⟨.hbm, 68, rfl⟩
abbrev main_v39 : Ref sig .tc := ⟨.hbm, 69, rfl⟩
abbrev main_v40 : Ref sig .tc := ⟨.hbm, 70, rfl⟩
abbrev main_c_6 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call3_cst : Ref sig .tc := ⟨.hbm, 82, rfl⟩
abbrev main_call3_v0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call4_cst : Ref sig .tc := ⟨.hbm, 89, rfl⟩
abbrev main_call4_v0 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call5_cst : Ref sig .tc := ⟨.hbm, 101, rfl⟩
abbrev main_call5_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call6_cst : Ref sig .tc := ⟨.hbm, 108, rfl⟩
abbrev main_call6_v0 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x512_S100000x512_S100000x1024_d1 : Shape.Concatenates [S100000x512, S100000x512] S100000x1024 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x512_S512x512_S100000x512_1_0_0_1_n_n_wf : DotDims.WF S100000x512 S512x512 S100000x512 [1] [0] [0] [1] [] []
  gather_S100000x512_S100000x1_S100000x512_1_0_n_n_0_1_1512_wf : GatherDims.WF S100000x512 S100000x1 S100000x512 [1] [0] [] [0] [] 1 ![1, 512]
  dot_S100000x1024_S1024x512_S100000x512_1_0_0_1_n_n_wf : DotDims.WF S100000x1024 S1024x512 S100000x512 [1] [0] [0] [1] [] []
  dot_S100000x512_S512x1_S100000x1_1_0_0_1_n_n_wf : DotDims.WF S100000x512 S512x1 S100000x1 [1] [0] [0] [1] [] []

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def gather_S100000x512_S100000x1_S100000x512_1_0_n_n_0_1_1512 : GatherDims S100000x512 S100000x1 S100000x512 where
  offsetDims := [1]
  collapsedSliceDims := [0]
  operandBatchingDims := []
  startIndicesBatchingDims := []
  startIndexMap := [0]
  indexVectorDim := 1
  sliceSizes := ![1, 512]
  wf := gather_S100000x512_S100000x1_S100000x512_1_0_n_n_0_1_1512_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf
def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf

class Facts : Prop extends Facts₀ where

variable [Facts]
-- ==== Proof.KernelRun.lean ====
/-
  The idealized kernel program's run, with its two results named. The program is five segments: a stretch of host
  operations, the encoder's grid, a second stretch, the scorer's grid, a last stretch. Every weakly fair execution
  terminates without a fault, and at the end every buffer of the tensor core holds what the fold of the five
  segments from the launch memory leaves there; in particular the two results hold that fold's contents, and the
  argument arrays hold what they were launched with.
-/
import proofs.«109992_j39737037422592_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments as launched. -/
theorem run : θ_run defs (onTc (τ := τ) (main (F := F))) ⟨m, fun _ => 0, ρ⟩ (fun r => ∀ c : Dev nD,
      r.2.mem ((c.tc : Thread nD τ).loc main_v34) = W5 m ρ c (Proc.devRef .tc main_v34)
      ∧ r.2.mem ((c.tc : Thread nD τ).loc main_v35) = W5 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v34 (by decide)),
       h c _ (mem_uc main_v35 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c)⟩)

end Cert.KernelIdeal.Whole

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«109992_j39737037422592_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.Spec.lean ====
/-
  The mathematics of the link predictor, over the extended reals and at any number of rows.

  The node encoder sends a row x of 512 features to h3, where h1 = relu (x W1 + b1), h2 = relu (h1 W2 + b2) + h1 and
  h3 = relu (h2 Wo + bo) + h2. The edge scorer sends a pair of encoded rows (s, d) to
  relu (relu ([s, d] P1 + c1) P2 + c2) P3 + c3, where [s, d] is the row of 1024 entries s followed by d.
  Every entry of either depends on ONE row of the input only. The scorer is spelt twice: over the joined row and the
  whole 1024-row matrix P1, and over the two rows apart and the upper and lower halves of P1; the two agree because a
  sum over 1024 terms is the sum over the first 512 plus the sum over the last 512 — associativity and commutativity
  of addition only, so it holds at infinite entries as well.
-/
import proofs.«109992_j39737037422592_2_alg».proof.Proof.LibDense
import proofs.«109992_j39737037422592_2_alg».proof.Proof.LibRows

noncomputable section

namespace Cert.Spec

open Idealize.ShloMosaic Idealize.ShloMosaic.ValueIdx Cert.DenseLib

/-- One dense layer and its cut at zero: relu (X W + b). -/
def layer {M K N : ℕ} (X : (⟨2, ![M, K]⟩ : Shape).Idx → EReal) (W : (⟨2, ![K, N]⟩ : Shape).Idx → EReal)
    (b : Fin N → EReal) : (⟨2, ![M, N]⟩ : Shape).Idx → EReal :=
  relu (plus (mm X W) (rows b))

/-- A layer's row p depends on row p of its input only. -/
theorem layer_row {M M' K N : ℕ} (X : (⟨2, ![M, K]⟩ : Shape).Idx → EReal) (X' : (⟨2, ![M', K]⟩ : Shape).Idx → EReal)
    (W : (⟨2, ![K, N]⟩ : Shape).Idx → EReal) (b : Fin N → EReal) (p : Fin M) (p' : Fin M')
    (h : ∀ k, X (ix2 p k) = X' (ix2 p' k)) (q : Fin N) : layer X W b (ix2 p q) = layer X' W b (ix2 p' q) := by
  show max (mm X W (ix2 p q) + b q) 0 = max (mm X' W (ix2 p' q) + b q) 0
  rw [mm_row X X' W p p' h q]

/-! ## The node encoder -/

section Encoder
variable {M : ℕ} (X : (⟨2, ![M, 512]⟩ : Shape).Idx → EReal)
  (W1 : (⟨2, ![512, 512]⟩ : Shape).Idx → EReal) (b1 : Fin 512 → EReal)
  (W2 : (⟨2, ![512, 512]⟩ : Shape).Idx → EReal) (b2 : Fin 512 → EReal)
  (Wo : (⟨2, ![512, 512]⟩ : Shape).Idx → EReal) (bo : Fin 512 → EReal)

/-- h1 = relu (x W1 + b1). -/
def enc1 : (⟨2, ![M, 512]⟩ : Shape).Idx → EReal := layer X W1 b1
/-- h2 = relu (h1 W2 + b2) + h1. -/
def enc2 : (⟨2, ![M, 512]⟩ : Shape).Idx → EReal := plus (layer (enc1 X W1 b1) W2 b2) (enc1 X W1 b1)
/-- h3 = relu (h2 Wo + bo) + h2: the encoded rows. -/
def enc : (⟨2, ![M, 512]⟩ : Shape).Idx → EReal := plus (layer (enc2 X W1 b1 W2 b2) Wo bo) (enc2 X W1 b1 W2 b2)

end Encoder

/-- The encoder's row p depends on row p of the features only: arrays of any two heights that agree on a row of each
    have encodings that agree on those rows. -/
theorem enc_row {M M' : ℕ} (X : (⟨2, ![M, 512]⟩ : Shape).Idx → EReal) (X' : (⟨2, ![M', 512]⟩ : Shape).Idx → EReal)
    (W1 : (⟨2, ![512, 512]⟩ : Shape).Idx → EReal) (b1 : Fin 512 → EReal)
    (W2 : (⟨2, ![512, 512]⟩ : Shape).Idx → EReal) (b2 : Fin 512 → EReal)
    (Wo : (⟨2, ![512, 512]⟩ : Shape).Idx → EReal) (bo : Fin 512 → EReal)
    (p : Fin M) (p' : Fin M') (h : ∀ k, X (ix2 p k) = X' (ix2 p' k)) (q : Fin 512) :
    enc X W1 b1 W2 b2 Wo bo (ix2 p q) = enc X' W1 b1 W2 b2 Wo bo (ix2 p' q) := by
  have e1 : ∀ k, enc1 X W1 b1 (ix2 p k) = enc1 X' W1 b1 (ix2 p' k) := layer_row X X' W1 b1 p p' h
  have e2 : ∀ k, enc2 X W1 b1 W2 b2 (ix2 p k) = enc2 X' W1 b1 W2 b2 (ix2 p' k) := fun k => by
    show layer (enc1 X W1 b1) W2 b2 (ix2 p k) + enc1 X W1 b1 (ix2 p k)
      = layer (enc1 X' W1 b1) W2 b2 (ix2 p' k) + enc1 X' W1 b1 (ix2 p' k)
    rw [layer_row _ _ W2 b2 p p' e1 k, e1 k]
  show layer (enc2 X W1 b1 W2 b2) Wo bo (ix2 p q) + enc2 X W1 b1 W2 b2 (ix2 p q)
    = layer (enc2 X' W1 b1 W2 b2) Wo bo (ix2 p' q) + enc2 X' W1 b1 W2 b2 (ix2 p' q)
  rw [layer_row _ _ Wo bo p p' e2 q, e2 q]

/-- The same at any two indices whose rows agree and whose columns are equal. -/
theorem enc_at {M M' : ℕ} (X : (⟨2, ![M, 512]⟩ : Shape).Idx → EReal) (X' : (⟨2, ![M', 512]⟩ : Shape).Idx → EReal)
    (W1 : (⟨2, ![512, 512]⟩ : Shape).Idx → EReal) (b1 : Fin 512 → EReal)
    (W2 : (⟨2, ![512, 512]⟩ : Shape).Idx → EReal) (b2 : Fin 512 → EReal)
    (Wo : (⟨2, ![512, 512]⟩ : Shape).Idx → EReal) (bo : Fin 512 → EReal)
    (i : (⟨2, ![M, 512]⟩ : Shape).Idx) (i' : (⟨2, ![M', 512]⟩ : Shape).Idx)
    (h : ∀ k : Fin 512, X (ix2 (n0 := M) (i 0) k) = X' (ix2 (n0 := M') (i' 0) k)) (hq : (i 1).val = (i' 1).val) :
    enc X W1 b1 W2 b2 Wo bo i = enc X' W1 b1 W2 b2 Wo bo i' := by
  have e : (i 1 : Fin 512) = i' 1 := Fin.ext hq
  rw [eq_ix2 i, eq_ix2 i']
  show enc X W1 b1 W2 b2 Wo bo (ix2 (i 0) (i 1)) = enc X' W1 b1 W2 b2 Wo bo (ix2 (i' 0) (i' 1))
  rw [← e]
  exact enc_row X X' W1 b1 W2 b2 Wo bo (i 0) (i' 0) h (i 1)

/-! ## The edge scorer, spelt twice -/

/-- Over the joined rows [s, d] and the whole first matrix: relu (relu (Z P1 + c1) P2 + c2) P3 + c3. -/
def scoreJoined {M : ℕ} (Z : (⟨2, ![M, 1024]⟩ : Shape).Idx → EReal)
    (P1 : (⟨2, ![1024, 512]⟩ : Shape).Idx → EReal) (c1 : Fin 512 → EReal)
    (P2 : (⟨2, ![512, 512]⟩ : Shape).Idx → EReal) (c2 : Fin 512 → EReal)
    (P3 : (⟨2, ![512, 1]⟩ : Shape).Idx → EReal) (c3 : Fin 1 → EReal) : (⟨2, ![M, 1]⟩ : Shape).Idx → EReal :=
  plus (mm (layer (layer Z P1 c1) P2 c2) P3) (rows c3)

/-- Over the two rows apart and the two halves of the first matrix:
    relu (relu (S Pt + D Pb + c1) P2 + c2) P3 + c3. -/
def scoreSplit {M : ℕ} (S D : (⟨2, ![M, 512]⟩ : Shape).Idx → EReal)
    (Pt Pb : (⟨2, ![512, 512]⟩ : Shape).Idx → EReal) (c1 : Fin 512 → EReal)
    (P2 : (⟨2, ![512, 512]⟩ : Shape).Idx → EReal) (c2 : Fin 512 → EReal)
    (P3 : (⟨2, ![512, 1]⟩ : Shape).Idx → EReal) (c3 : Fin 1 → EReal) : (⟨2, ![M, 1]⟩ : Shape).Idx → EReal :=
  plus (mm (layer (relu (plus (plus (mm S Pt) (mm D Pb)) (rows c1))) P2 c2) P3) (rows c3)

/-- The scorer's row p depends on row p of each of its two inputs only. -/
theorem scoreSplit_row {M M' : ℕ} (S D : (⟨2, ![M, 512]⟩ : Shape).Idx → EReal) (S' D' : (⟨2, ![M', 512]⟩ : Shape).Idx → EReal)
    (Pt Pb : (⟨2, ![512, 512]⟩ : Shape).Idx → EReal) (c1 : Fin 512 → EReal)
    (P2 : (⟨2, ![512, 512]⟩ : Shape).Idx → EReal) (c2 : Fin 512 → EReal)
    (P3 : (⟨2, ![512, 1]⟩ : Shape).Idx → EReal) (c3 : Fin 1 → EReal) (p : Fin M) (p' : Fin M')
    (hs : ∀ k, S (ix2 p k) = S' (ix2 p' k)) (hd : ∀ k, D (ix2 p k) = D' (ix2 p' k)) (u : Fin 1) :
    scoreSplit S D Pt Pb c1 P2 c2 P3 c3 (ix2 p u) = scoreSplit S' D' Pt Pb c1 P2 c2 P3 c3 (ix2 p' u) := by
  have e1 : ∀ q, relu (plus (plus (mm S Pt) (mm D Pb)) (rows c1)) (ix2 p q)
      = relu (plus (plus (mm S' Pt) (mm D' Pb)) (rows c1)) (ix2 p' q) := fun q => by
    show max ((mm S Pt (ix2 p q) + mm D Pb (ix2 p q)) + c1 q) 0 = max ((mm S' Pt (ix2 p' q) + mm D' Pb (ix2 p' q)) + c1 q) 0
    rw [mm_row S S' Pt p p' hs q, mm_row D D' Pb p p' hd q]
  have e2 : ∀ q, layer (relu (plus (plus (mm S Pt) (mm D Pb)) (rows c1))) P2 c2 (ix2 p q)
      = layer (relu (plus (plus (mm S' Pt) (mm D' Pb)) (rows c1))) P2 c2 (ix2 p' q) := layer_row _ _ P2 c2 p p' e1
  show mm (layer (relu (plus (plus (mm S Pt) (mm D Pb)) (rows c1))) P2 c2) P3 (ix2 p u) + c3 u
    = mm (layer (relu (plus (plus (mm S' Pt) (mm D' Pb)) (rows c1))) P2 c2) P3 (ix2 p' u) + c3 u
  rw [mm_row _ _ P3 p p' e2 u]

/-- The same at any two indices whose rows agree. -/
theorem scoreSplit_at {M M' : ℕ} (S D : (⟨2, ![M, 512]⟩ : Shape).Idx → EReal) (S' D' : (⟨2, ![M', 512]⟩ : Shape).Idx → EReal)
    (Pt Pb : (⟨2, ![512, 512]⟩ : Shape).Idx → EReal) (c1 : Fin 512 → EReal)
    (P2 : (⟨2, ![512, 512]⟩ : Shape).Idx → EReal) (c2 : Fin 512 → EReal)
    (P3 : (⟨2, ![512, 1]⟩ : Shape).Idx → EReal) (c3 : Fin 1 → EReal)
    (i : (⟨2, ![M, 1]⟩ : Shape).Idx) (i' : (⟨2, ![M', 1]⟩ : Shape).Idx)
    (hs : ∀ k : Fin 512, S (ix2 (n0 := M) (i 0) k) = S' (ix2 (n0 := M') (i' 0) k))
    (hd : ∀ k : Fin 512, D (ix2 (n0 := M) (i 0) k) = D' (ix2 (n0 := M') (i' 0) k)) :
    scoreSplit S D Pt Pb c1 P2 c2 P3 c3 i = scoreSplit S' D' Pt Pb c1 P2 c2 P3 c3 i' := by
  have e : (i 1 : Fin 1) = i' 1 := Fin.ext (by
    have h1 : (i 1 : Fin 1).val < 1 := (i 1 : Fin 1).isLt
    have h2 : (i' 1 : Fin 1).val < 1 := (i' 1 : Fin 1).isLt
    omega)
  rw [eq_ix2 i, eq_ix2 i']
  show scoreSplit S D Pt Pb c1 P2 c2 P3 c3 (ix2 (i 0) (i 1)) = scoreSplit S' D' Pt Pb c1 P2 c2 P3 c3 (ix2 (i' 0) (i' 1))
  rw [← e]
  exact scoreSplit_row S D S' D' Pt Pb c1 P2 c2 P3 c3 (i 0) (i' 0) hs hd (i 1)

/-- THE LAW: a row of 1024 entries against a 1024-row matrix is its first half against the upper half of the
    matrix plus its second half against the lower half. -/
theorem mm_split {M M' : ℕ} (Z : (⟨2, ![M, 1024]⟩ : Shape).Idx → EReal) (S D : (⟨2, ![M', 512]⟩ : Shape).Idx → EReal)
    (P1 : (⟨2, ![1024, 512]⟩ : Shape).Idx → EReal) (Pt Pb : (⟨2, ![512, 512]⟩ : Shape).Idx → EReal)
    (p : Fin M) (p' : Fin M')
    (hs : ∀ k : Fin 512, Z (ix2 p (Fin.castAdd 512 k)) = S (ix2 p' k))
    (hd : ∀ k : Fin 512, Z (ix2 p (Fin.natAdd 512 k)) = D (ix2 p' k))
    (ht : ∀ (k : Fin 512) (q : Fin 512), Pt (ix2 k q) = P1 (ix2 (Fin.castAdd 512 k) q))
    (hb : ∀ (k : Fin 512) (q : Fin 512), Pb (ix2 k q) = P1 (ix2 (Fin.natAdd 512 k) q)) (q : Fin 512) :
    mm Z P1 (ix2 p q) = mm S Pt (ix2 p' q) + mm D Pb (ix2 p' q) := by
  rw [mm_apply, mm_apply, mm_apply]
  refine (Fin.sum_univ_add (a := 512) (b := 512)
    fun k : Fin (512 + 512) => Z (ix2 p (k : Fin 1024)) * P1 (ix2 (k : Fin 1024) q)).trans ?_
  congr 1
  · exact Finset.sum_congr rfl fun k _ => by rw [hs k, ht k q]
  · exact Finset.sum_congr rfl fun k _ => by rw [hd k, hb k q]

/-- The two spellings of the scorer agree on a row of each, of arrays of any two heights, when the joined row is the
    two rows end to end and the two matrices are the halves of the whole one. -/
theorem score_joined_eq_split {M M' : ℕ} (Z : (⟨2, ![M, 1024]⟩ : Shape).Idx → EReal)
    (S D : (⟨2, ![M', 512]⟩ : Shape).Idx → EReal)
    (P1 : (⟨2, ![1024, 512]⟩ : Shape).Idx → EReal) (Pt Pb : (⟨2, ![512, 512]⟩ : Shape).Idx → EReal) (c1 : Fin 512 → EReal)
    (P2 : (⟨2, ![512, 512]⟩ : Shape).Idx → EReal) (c2 : Fin 512 → EReal)
    (P3 : (⟨2, ![512, 1]⟩ : Shape).Idx → EReal) (c3 : Fin 1 → EReal)
    (p : Fin M) (p' : Fin M')
    (hs : ∀ k : Fin 512, Z (ix2 p (Fin.castAdd 512 k)) = S (ix2 p' k))
    (hd : ∀ k : Fin 512, Z (ix2 p (Fin.natAdd 512 k)) = D (ix2 p' k))
    (ht : ∀ (k : Fin 512) (q : Fin 512), Pt (ix2 k q) = P1 (ix2 (Fin.castAdd 512 k) q))
    (hb : ∀ (k : Fin 512) (q : Fin 512), Pb (ix2 k q) = P1 (ix2 (Fin.natAdd 512 k) q)) (u : Fin 1) :
    scoreJoined Z P1 c1 P2 c2 P3 c3 (ix2 p u) = scoreSplit S D Pt Pb c1 P2 c2 P3 c3 (ix2 p' u) := by
  have e1 : ∀ q, layer Z P1 c1 (ix2 p q) = relu (plus (plus (mm S Pt) (mm D Pb)) (rows c1)) (ix2 p' q) := fun q => by
    show max (mm Z P1 (ix2 p q) + c1 q) 0 = max ((mm S Pt (ix2 p' q) + mm D Pb (ix2 p' q)) + c1 q) 0
    rw [mm_split Z S D P1 Pt Pb p p' hs hd ht hb q]
  have e2 : ∀ q, layer (layer Z P1 c1) P2 c2 (ix2 p q)
      = layer (relu (plus (plus (mm S Pt) (mm D Pb)) (rows c1))) P2 c2 (ix2 p' q) := layer_row _ _ P2 c2 p p' e1
  show mm (layer (layer Z P1 c1) P2 c2) P3 (ix2 p u) + c3 u
    = mm (layer (relu (plus (plus (mm S Pt) (mm D Pb)) (rows c1))) P2 c2) P3 (ix2 p' u) + c3 u
  rw [mm_row _ _ P3 p p' e2 u]

/-! ## Which row an index names -/

/-- A start index as both programs normalise it before they gather: a negative index counts back from the end of the
    100000 rows. -/
def wrap (b : BitVec 32) : BitVec 32 := Scalar.select (IntOp.cmpi .slt b 0#32) (IntOp.addi b 100000#32) b

/-- The row of the table of encodings an index names: the normalised index, read signed and clamped into the table. -/
def nodeRow (b : BitVec 32) : Fin 100000 := Cert.RowsLib.rowOf 100000 (by decide) (wrap b)

end Cert.Spec

end
-- ==== Proof.EncRegion.lean ====
/-
  The encoder's grid, closed. The grid has 100 points; point t encodes rows 1000 t .. 1000 t + 999 of the feature
  array (its block of the first window) with the three weight matrices and three bias rows whole (their windows stay
  at block 0), and writes the 1000 encoded rows back to the same rows of the output array. Since a row's encoding
  depends on that row alone, what a point writes is the block of ONE whole-array function: the encoder applied to all
  100000 rows at once. The blocks tile the output array, so after the grid the array IS that function of the arrays
  the grid was entered with.
-/
import proofs.«109992_j39737037422592_2_alg».proof.Proof.Gen.KernelIdeal.Frame
import proofs.«109992_j39737037422592_2_alg».proof.Proof.Spec

set_option maxRecDepth 16384

noncomputable section

namespace Cert.KernelIdeal.EncRegion

open Cert.KernelIdeal Cert.KernelIdeal.Gen
open Idealize.ShloMosaic Idealize.ShloMosaic.TcCoe Idealize.ShloMosaic.ValueIdx Idealize.SL.Sem
open Idealize.ShloMosaic.Pipeline (Dat)
open Cert.DenseLib Cert.Spec

theorem hz : (![0, 0] : Fin 2 → Nat) = fun _ => 0 := funext fun a => by fin_cases a <;> rfl

/-- The body's arithmetic is the encoder at 1000 rows, its bias rows read off the one-row arrays. -/
theorem pay_eq (v0 : Vec Ideal S1000x512 .f32) (v2 : Vec Ideal S512x512 .bf16) (v5 : Vec Ideal S1x512 .f32)
    (v12 : Vec Ideal S512x512 .bf16) (v15 : Vec Ideal S1x512 .f32) (v23 : Vec Ideal S512x512 .bf16) (v26 : Vec Ideal S1x512 .f32) :
    k0_pay1 (F := Ideal) v0 v2 v5 v12 v15 v23 v26
      = enc (M := 1000) v0 v2 (fun q => v5 (ix2 (0 : Fin 1) q)) v12 (fun q => v15 (ix2 (0 : Fin 1) q))
          v23 (fun q => v26 (ix2 (0 : Fin 1) q)) := by
  unfold k0_pay1
  simp only [truncf_eq, shapeCast_self, matmul_eq_mm dot_S1000x512_S512x512_S1000x512_1_0_0_1_n_n rfl,
    broadcastTo_eq_rows, maximumf_splat_zero, addf_eq_plus]
  rfl

variable (V : (c : Dev nD) → (b : Ref sig .tc) → Buf (Elt Ideal) ((c : Thread nD τ).loc b))

/-- The encoder applied to all the rows of the arrays the grid is entered with. -/
def encoded (c : Dev nD) : S100000x512.Idx → EReal :=
  enc (M := 100000) (V c main_arg0) (V c main_v0) (fun q => V c main_v3 (ix2 (0 : Fin 1) q))
    (V c main_v1) (fun q => V c main_v4 (ix2 (0 : Fin 1) q)) (V c main_v2) (fun q => V c main_v5 (ix2 (0 : Fin 1) q))

/-- The printed index maps over the grid: the feature and output windows are at block (t, 0), the others at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A window that stays at block 0 and spans its array stages the array. -/
theorem blk1 (c : Dev nD) (t : Fin cfg0.N) : (iblk0 V c 1 t : S512x512.Idx → EReal) = V c main_v0 := by
  obtain ⟨-, -, e0, e1, -⟩ := idx_facts t
  funext y
  show V c main_v0 (((cfg0.win 1).blk t).view.emb y) = V c main_v0 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega
theorem blk2 (c : Dev nD) (t : Fin cfg0.N) : (iblk0 V c 2 t : S1x512.Idx → EReal) = V c main_v3 := by
  obtain ⟨-, -, -, -, e0, e1, -⟩ := idx_facts t
  funext y
  show V c main_v3 (((cfg0.win 2).blk t).view.emb y) = V c main_v3 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega
theorem blk3 (c : Dev nD) (t : Fin cfg0.N) : (iblk0 V c 3 t : S512x512.Idx → EReal) = V c main_v1 := by
  obtain ⟨-, -, -, -, -, -, e0, e1, -⟩ := idx_facts t
  funext y
  show V c main_v1 (((cfg0.win 3).blk t).view.emb y) = V c main_v1 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega
theorem blk4 (c : Dev nD) (t : Fin cfg0.N) : (iblk0 V c 4 t : S1x512.Idx → EReal) = V c main_v4 := by
  obtain ⟨-, -, -, -, -, -, -, -, e0, e1, -⟩ := idx_facts t
  funext y
  show V c main_v4 (((cfg0.win 4).blk t).view.emb y) = V c main_v4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega
theorem blk5 (c : Dev nD) (t : Fin cfg0.N) : (iblk0 V c 5 t : S512x512.Idx → EReal) = V c main_v2 := by
  obtain ⟨-, -, -, -, -, -, -, -, -, -, e0, e1, -⟩ := idx_facts t
  funext y
  show V c main_v2 (((cfg0.win 5).blk t).view.emb y) = V c main_v2 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega
theorem blk6 (c : Dev nD) (t : Fin cfg0.N) : (iblk0 V c 6 t : S1x512.Idx → EReal) = V c main_v5 := by
  obtain ⟨-, -, -, -, -, -, -, -, -, -, -, -, e0, e1, -⟩ := idx_facts t
  funext y
  show V c main_v5 (((cfg0.win 6).blk t).view.emb y) = V c main_v5 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- WHAT POINT t WRITES BACK is block t of the whole-array encoding: row r of the block is row 1000 t + r of the
    features, encoded. -/
theorem flushed_eq (c : Dev nD) (t : Fin cfg0.N) :
    (dat0 V c).flushed 7 t = ((cfg0.win 7).blk t).view.read (Elt Ideal) (encoded V c) := by
  show (cfg0.win 7).cut (grid0.coords t) ((dat0 V c).after 7 t) = _
  rw [after0_7]
  unfold out0_7
  rw [View.canon_unit_zero hz]
  simp only [View.ld_unit_zero (S := S1000x512) hz, View.ld_unit_zero (S := S512x512) hz, View.ld_unit_zero (S := S1x512) hz]
  rw [pay_eq, blk1, blk2, blk3, blk4, blk5, blk6]
  obtain ⟨e00, e01, -, -, -, -, -, -, -, -, -, -, -, -, e70, e71⟩ := idx_facts t
  funext j
  show enc (M := 1000) (iblk0 V c 0 t) (V c main_v0) (fun q => V c main_v3 (ix2 (0 : Fin 1) q))
      (V c main_v1) (fun q => V c main_v4 (ix2 (0 : Fin 1) q)) (V c main_v2) (fun q => V c main_v5 (ix2 (0 : Fin 1) q)) j
    = encoded V c (((cfg0.win 7).blk t).view.emb j)
  unfold encoded
  refine enc_at (M := 1000) (M' := 100000) _ _ _ _ _ _ _ _ j _ (fun k => ?_) ?_
  · show V c main_arg0 (((cfg0.win 0).blk t).view.emb (ix2 (j 0) k))
      = V c main_arg0 (ix2 ((((cfg0.win 7).blk t).view.emb j) 0) k)
    refine congrArg _ (funext fun a => Fin.ext ?_)
    match a with
    | ⟨0, _⟩ =>
      show win0_0.index t (0 : Fin 2) * 1000 + 1 * (j 0).val = win0_7.index t (0 : Fin 2) * 1000 + 1 * (j 0).val
      omega
    | ⟨1, _⟩ =>
      show win0_0.index t (1 : Fin 2) * 512 + 1 * k.val = k.val
      omega
  · show (j 1).val = win0_7.index t (1 : Fin 2) * 512 + 1 * (j 1).val
    omega

/-- An index of the output array is in point t's block iff each coordinate is in the block's range on its axis. -/
theorem mem_blk (t : Fin cfg0.N) (i : S100000x512.Idx) :
    i ∈ ((cfg0.win 7).blk t).view.set ↔ ∀ a : Fin 2, win0_7.index t a * S1000x512.size a ≤ (i a).val
      ∧ (i a).val < win0_7.index t a * S1000x512.size a + S1000x512.size a := by
  show i ∈ ((View.whole main_v6).slice (win0_7.rect t)).set ↔ _
  rw [View.set_slice_whole, Rect.mem_set_unit]
  exact Iff.rfl

/-- Every row of the output array is in some point's block: row r in that of point r / 1000. -/
theorem cover (i : S100000x512.Idx) :
    ∃ t : Fin cfg0.N, (cfg0.win 7).flush t = true ∧ i ∈ ((cfg0.win 7).blk t).view.set := by
  have hi0 : (i 0).val < 100000 := (i 0).isLt
  have hi1 : (i 1).val < 512 := (i 1).isLt
  have hN : cfg0.N = 100 := N_0
  obtain ⟨t, ht⟩ : ∃ t : Fin cfg0.N, t.val = (i 0).val / 1000 := ⟨⟨(i 0).val / 1000, by rw [hN]; omega⟩, rfl⟩
  obtain ⟨-, -, -, -, -, -, -, -, -, -, -, -, -, -, e70, e71⟩ := idx_facts t
  refine ⟨t, flush0_7 t, ?_⟩
  rw [mem_blk]
  intro a
  match a with
  | ⟨0, _⟩ =>
    show win0_7.index t (0 : Fin 2) * 1000 ≤ (i 0).val ∧ (i 0).val < win0_7.index t (0 : Fin 2) * 1000 + 1000
    omega
  | ⟨1, _⟩ =>
    show win0_7.index t (1 : Fin 2) * 512 ≤ (i 1).val ∧ (i 1).val < win0_7.index t (1 : Fin 2) * 512 + 512
    omega

/-- THE ENCODED ARRAY after the grid: the encoder of all the rows. -/
theorem final (c : Dev nD) : (dat0 V c).arrAt 7 cfg0.N = encoded V c :=
  (dat0 V c).arrAt_eq_of_cover 7 (encoded V c) (fun t _ => flushed_eq V c t) (cover)

end Cert.KernelIdeal.EncRegion

end
-- ==== Proof.ScoreRegion.lean ====
/-
  The scorer's grid, closed. The grid has 100 points; point t scores rows 2000 t .. 2000 t + 1999 of the two arrays of
  gathered encodings (its blocks of the first two windows) with the two halves of the first matrix, the two further
  matrices and the three bias rows whole, and writes the 2000 scores back to the same rows of the one-column output
  array. A row's score depends on that row of each of the two arrays alone, so what a point writes is the block of
  ONE whole-array function, the scorer applied to all 200000 rows at once; the blocks tile the output array.
-/
import proofs.«109992_j39737037422592_2_alg».proof.Proof.Gen.KernelIdeal.Frame
import proofs.«109992_j39737037422592_2_alg».proof.Proof.Spec

set_option maxRecDepth 16384

noncomputable section

namespace Cert.KernelIdeal.ScoreRegion

open Cert.KernelIdeal Cert.KernelIdeal.Gen
open Idealize.ShloMosaic Idealize.ShloMosaic.TcCoe Idealize.ShloMosaic.ValueIdx Idealize.SL.Sem
open Idealize.ShloMosaic.Pipeline (Dat)
open Cert.DenseLib Cert.Spec

theorem hz : (![0, 0] : Fin 2 → Nat) = fun _ => 0 := funext fun a => by fin_cases a <;> rfl

/-- The body's arithmetic is the scorer, in its two-halves spelling, at 2000 rows. -/
theorem pay_eq (v0 v2 : Vec Ideal S2000x512 .bf16) (v4 v7 : Vec Ideal S512x512 .bf16) (v11 : Vec Ideal S1x512 .f32)
    (v18 : Vec Ideal S512x512 .bf16) (v21 : Vec Ideal S1x512 .f32) (v28 : Vec Ideal S512x1 .bf16) (v31 : Vec Ideal S1x1 .f32) :
    k1_pay1 (F := Ideal) v0 v2 v4 v7 v11 v18 v21 v28 v31
      = scoreSplit (M := 2000) v0 v2 v4 v7 (fun q => v11 (ix2 (0 : Fin 1) q)) v18 (fun q => v21 (ix2 (0 : Fin 1) q))
          v28 (fun q => v31 (ix2 (0 : Fin 1) q)) := by
  unfold k1_pay1
  simp only [truncf_eq, shapeCast_self, matmul_eq_mm dot_S2000x512_S512x512_S2000x512_1_0_0_1_n_n rfl,
    matmul_eq_mm dot_S2000x512_S512x1_S2000x1_1_0_0_1_n_n rfl, broadcastTo_eq_rows, maximumf_splat_zero, addf_eq_plus]
  rfl

variable (V : (c : Dev nD) → (b : Ref sig .tc) → Buf (Elt Ideal) ((c : Thread nD τ).loc b))

/-- The scorer applied to all the rows of the arrays the grid is entered with. -/
def scored (c : Dev nD) : S200000x1.Idx → EReal :=
  scoreSplit (M := 200000) (V c main_v24) (V c main_v31) (V c main_v8) (V c main_v10)
    (fun q => V c main_v11 (ix2 (0 : Fin 1) q)) (V c main_v12) (fun q => V c main_v13 (ix2 (0 : Fin 1) q))
    (V c main_v14) (fun q => V c main_v15 (ix2 (0 : Fin 1) q))

/-- The printed index maps over the grid: the two gathered arrays' windows and the output's are at block (t, 0), the
    others at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-! A window that stays at block 0 and spans its array stages the array. -/
theorem blk2 (c : Dev nD) (t : Fin cfg1.N) : (iblk1 V c 2 t : S512x512.Idx → EReal) = V c main_v8 := by
  have e := idx_facts t
  funext y
  show V c main_v8 (((cfg1.win 2).blk t).view.emb y) = V c main_v8 y
  refine congrArg _ (funext fun a => Fin.ext ?_)
  match a with
  | ⟨0, _⟩ => show win1_2.index t (0 : Fin 2) * 512 + 1 * (y 0).val = (y 0).val; omega
  | ⟨1, _⟩ => show win1_2.index t (1 : Fin 2) * 512 + 1 * (y 1).val = (y 1).val; omega
theorem blk3 (c : Dev nD) (t : Fin cfg1.N) : (iblk1 V c 3 t : S512x512.Idx → EReal) = V c main_v10 := by
  have e := idx_facts t
  funext y
  show V c main_v10 (((cfg1.win 3).blk t).view.emb y) = V c main_v10 y
  refine congrArg _ (funext fun a => Fin.ext ?_)
  match a with
  | ⟨0, _⟩ => show win1_3.index t (0 : Fin 2) * 512 + 1 * (y 0).val = (y 0).val; omega
  | ⟨1, _⟩ => show win1_3.index t (1 : Fin 2) * 512 + 1 * (y 1).val = (y 1).val; omega
theorem blk4 (c : Dev nD) (t : Fin cfg1.N) : (iblk1 V c 4 t : S1x512.Idx → EReal) = V c main_v11 := by
  have e := idx_facts t
  funext y
  show V c main_v11 (((cfg1.win 4).blk t).view.emb y) = V c main_v11 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 512 + 1 * (y 1).val = (y 1).val; omega
theorem blk5 (c : Dev nD) (t : Fin cfg1.N) : (iblk1 V c 5 t : S512x512.Idx → EReal) = V c main_v12 := by
  have e := idx_facts t
  funext y
  show V c main_v12 (((cfg1.win 5).blk t).view.emb y) = V c main_v12 y
  refine congrArg _ (funext fun a => Fin.ext ?_)
  match a with
  | ⟨0, _⟩ => show win1_5.index t (0 : Fin 2) * 512 + 1 * (y 0).val = (y 0).val; omega
  | ⟨1, _⟩ => show win1_5.index t (1 : Fin 2) * 512 + 1 * (y 1).val = (y 1).val; omega
theorem blk6 (c : Dev nD) (t : Fin cfg1.N) : (iblk1 V c 6 t : S1x512.Idx → EReal) = V c main_v13 := by
  have e := idx_facts t
  funext y
  show V c main_v13 (((cfg1.win 6).blk t).view.emb y) = V c main_v13 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 512 + 1 * (y 1).val = (y 1).val; omega
theorem blk7 (c : Dev nD) (t : Fin cfg1.N) : (iblk1 V c 7 t : S512x1.Idx → EReal) = V c main_v14 := by
  have e := idx_facts t
  funext y
  show V c main_v14 (((cfg1.win 7).blk t).view.emb y) = V c main_v14 y
  refine congrArg _ (funext fun a => Fin.ext ?_)
  match a with
  | ⟨0, _⟩ => show win1_7.index t (0 : Fin 2) * 512 + 1 * (y 0).val = (y 0).val; omega
  | ⟨1, _⟩ => show win1_7.index t (1 : Fin 2) * 1 + 1 * (y 1).val = (y 1).val; omega
theorem blk8 (c : Dev nD) (t : Fin cfg1.N) : (iblk1 V c 8 t : S1x1.Idx → EReal) = V c main_v15 := by
  have e := idx_facts t
  funext y
  show V c main_v15 (((cfg1.win 8).blk t).view.emb y) = V c main_v15 y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- WHAT POINT t WRITES BACK is block t of the whole-array scores: row r of the block is the score of row
    2000 t + r of the two gathered arrays. -/
theorem flushed_eq (c : Dev nD) (t : Fin cfg1.N) :
    (dat1 V c).flushed 9 t = ((cfg1.win 9).blk t).view.read (Elt Ideal) (scored V c) := by
  show (cfg1.win 9).cut (grid1.coords t) ((dat1 V c).after 9 t) = _
  rw [after1_9]
  unfold out1_9
  rw [View.canon_unit_zero hz]
  simp only [View.ld_unit_zero (S := S2000x512) hz, View.ld_unit_zero (S := S512x512) hz, View.ld_unit_zero (S := S1x512) hz,
    View.ld_unit_zero (S := S512x1) hz, View.ld_unit_zero (S := S1x1) hz]
  rw [pay_eq, blk2, blk3, blk4, blk5, blk6, blk7, blk8]
  have e := idx_facts t
  funext j
  show scoreSplit (M := 2000) (iblk1 V c 0 t) (iblk1 V c 1 t) (V c main_v8) (V c main_v10)
      (fun q => V c main_v11 (ix2 (0 : Fin 1) q)) (V c main_v12) (fun q => V c main_v13 (ix2 (0 : Fin 1) q))
      (V c main_v14) (fun q => V c main_v15 (ix2 (0 : Fin 1) q)) j
    = scored V c (((cfg1.win 9).blk t).view.emb j)
  unfold scored
  refine scoreSplit_at (M := 2000) (M' := 200000) _ _ _ _ _ _ _ _ _ _ _ j _ (fun k => ?_) (fun k => ?_)
  · show V c main_v24 (((cfg1.win 0).blk t).view.emb (ix2 (j 0) k))
      = V c main_v24 (ix2 ((((cfg1.win 9).blk t).view.emb j) 0) k)
    refine congrArg _ (funext fun a => Fin.ext ?_)
    match a with
    | ⟨0, _⟩ =>
      show win1_0.index t (0 : Fin 2) * 2000 + 1 * (j 0).val = win1_9.index t (0 : Fin 2) * 2000 + 1 * (j 0).val
      omega
    | ⟨1, _⟩ =>
      show win1_0.index t (1 : Fin 2) * 512 + 1 * k.val = k.val
      omega
  · show V c main_v31 (((cfg1.win 1).blk t).view.emb (ix2 (j 0) k))
      = V c main_v31 (ix2 ((((cfg1.win 9).blk t).view.emb j) 0) k)
    refine congrArg _ (funext fun a => Fin.ext ?_)
    match a with
    | ⟨0, _⟩ =>
      show win1_1.index t (0 : Fin 2) * 2000 + 1 * (j 0).val = win1_9.index t (0 : Fin 2) * 2000 + 1 * (j 0).val
      omega
    | ⟨1, _⟩ =>
      show win1_1.index t (1 : Fin 2) * 512 + 1 * k.val = k.val
      omega

/-- An index of the output array is in point t's block iff each coordinate is in the block's range on its axis. -/
theorem mem_blk (t : Fin cfg1.N) (i : S200000x1.Idx) :
    i ∈ ((cfg1.win 9).blk t).view.set ↔ ∀ a : Fin 2, win1_9.index t a * S2000x1.size a ≤ (i a).val
      ∧ (i a).val < win1_9.index t a * S2000x1.size a + S2000x1.size a := by
  show i ∈ ((View.whole main_v32).slice (win1_9.rect t)).set ↔ _
  rw [View.set_slice_whole, Rect.mem_set_unit]
  exact Iff.rfl

/-- Every row of the output array is in some point's block: row r in that of point r / 2000. -/
theorem cover (i : S200000x1.Idx) :
    ∃ t : Fin cfg1.N, (cfg1.win 9).flush t = true ∧ i ∈ ((cfg1.win 9).blk t).view.set := by
  have hi0 : (i 0).val < 200000 := (i 0).isLt
  have hi1 : (i 1).val < 1 := (i 1).isLt
  have hN : cfg1.N = 100 := N_1
  obtain ⟨t, ht⟩ : ∃ t : Fin cfg1.N, t.val = (i 0).val / 2000 := ⟨⟨(i 0).val / 2000, by rw [hN]; omega⟩, rfl⟩
  have e := idx_facts t
  refine ⟨t, flush1_9 t, ?_⟩
  rw [mem_blk]
  intro a
  match a with
  | ⟨0, _⟩ =>
    show win1_9.index t (0 : Fin 2) * 2000 ≤ (i 0).val ∧ (i 0).val < win1_9.index t (0 : Fin 2) * 2000 + 2000
    omega
  | ⟨1, _⟩ =>
    show win1_9.index t (1 : Fin 2) * 1 ≤ (i 1).val ∧ (i 1).val < win1_9.index t (1 : Fin 2) * 1 + 1
    omega

/-- THE SCORES after the grid: the scorer of all the rows. -/
theorem final (c : Dev nD) : (dat1 V c).arrAt 9 cfg1.N = scored V c :=
  (dat1 V c).arrAt_eq_of_cover 9 (scored V c) (fun t _ => flushed_eq V c t) (cover)

end Cert.KernelIdeal.ScoreRegion

end
-- ==== Proof.KernelValue.lean ====
/-
  The idealized kernel program's two results as the mathematics of the arrays it was launched with.

  First stretch: the three encoder matrices change float format only, the three bias vectors become one-row arrays.
  The encoder's grid then leaves the table H of all 100000 encoded rows. Second stretch: the first scorer matrix is
  cut into its upper and lower 512 rows, the other matrices change format only, the bias vectors become one-row
  arrays; the source indices of the two edge sets are laid end to end (positive edges first), normalised, and the
  rows of H they name are gathered — likewise the destination indices. The scorer's grid then leaves the 200000
  scores, a column. Last stretch: the column becomes a vector and is cut in two: the first 100000 scores are the
  positive edges', the last 100000 the negative edges'.
-/
import proofs.«109992_j39737037422592_2_alg».proof.Proof.Gen.KernelIdeal.Frame
import proofs.«109992_j39737037422592_2_alg».proof.Proof.EncRegion
import proofs.«109992_j39737037422592_2_alg».proof.Proof.ScoreRegion
import Idealize.ShloMosaic.Lib.StableHlo.Run

set_option maxRecDepth 16384

noncomputable section

namespace Cert.KernelIdeal.Closed

open Cert.KernelIdeal Cert.KernelIdeal.Gen
open Idealize.ShloMosaic Idealize.ShloMosaic.TcCoe Idealize.ShloMosaic.ValueIdx Idealize.SL.Sem
open Idealize.ShloMosaic.StableHlo
open Cert.LayoutLib Cert.DenseLib Cert.RowsLib Cert.Spec

variable (m : (ℓ : Loc nD τ sig) → Buf (Elt Ideal) ℓ) (ρ : Dev nD → PrngReg) (c : Dev nD)

/-- An argument array as launched. -/
abbrev A (b : Ref sig .tc) : Buf (Elt Ideal) ((c : Thread nD τ).loc b) := m ((c : Thread nD τ).loc b)

/-- The table of encoded rows: the encoder of all the feature rows. -/
def H : S100000x512.Idx → EReal :=
  enc (M := 100000) (A m c main_arg0) (A m c main_arg5) (fun q => A m c main_arg6 (ix1 q))
    (A m c main_arg7) (fun q => A m c main_arg8 (ix1 q)) (A m c main_arg9) (fun q => A m c main_arg10 (ix1 q))

/-- The source indices of the two edge sets end to end, positive edges first. -/
def srcAll : S200000.Idx → BitVec 32 :=
  concatenate S200000 0 [⟨S100000, A m c main_arg1⟩, ⟨S100000, A m c main_arg3⟩] concatenates_S100000_S100000_S200000_d0
/-- The destination indices likewise. -/
def dstAll : S200000.Idx → BitVec 32 :=
  concatenate S200000 0 [⟨S100000, A m c main_arg2⟩, ⟨S100000, A m c main_arg4⟩] concatenates_S100000_S100000_S200000_d0

/-! ## The first stretch -/

theorem V1_arg0 : V1 m ρ c main_arg0 = A m c main_arg0 := by
  show StableHlo.after hostOps0 (W0 m ρ c) (Proc.devRef .tc main_arg0) = _
  after_results
  all_goals rfl
theorem V1_v0 : V1 m ρ c main_v0 = A m c main_arg5 := by
  show StableHlo.after hostOps0 (W0 m ρ c) (Proc.devRef .tc main_v0) = _
  after_results
  all_goals rfl
theorem V1_v1 : V1 m ρ c main_v1 = A m c main_arg7 := by
  show StableHlo.after hostOps0 (W0 m ρ c) (Proc.devRef .tc main_v1) = _
  after_results
  all_goals rfl
theorem V1_v2 : V1 m ρ c main_v2 = A m c main_arg9 := by
  show StableHlo.after hostOps0 (W0 m ρ c) (Proc.devRef .tc main_v2) = _
  after_results
  all_goals rfl
theorem V1_v3 : V1 m ρ c main_v3 = shapeCast S1x512 (A m c main_arg6) shapeCasts_S512_S1x512 := by
  show StableHlo.after hostOps0 (W0 m ρ c) (Proc.devRef .tc main_v3) = _
  after_results
  all_goals rfl
theorem V1_v4 : V1 m ρ c main_v4 = shapeCast S1x512 (A m c main_arg8) shapeCasts_S512_S1x512 := by
  show StableHlo.after hostOps0 (W0 m ρ c) (Proc.devRef .tc main_v4) = _
  after_results
  all_goals rfl
theorem V1_v5 : V1 m ρ c main_v5 = shapeCast S1x512 (A m c main_arg10) shapeCasts_S512_S1x512 := by
  show StableHlo.after hostOps0 (W0 m ρ c) (Proc.devRef .tc main_v5) = _
  after_results
  all_goals rfl

/-- The encoder's grid is entered with the arguments' arrays: what it leaves is the table. -/
theorem encoded_V1 : EncRegion.encoded (V1 m ρ) c = H m c := by
  unfold EncRegion.encoded H
  rw [V1_arg0, V1_v0, V1_v1, V1_v2, V1_v3, V1_v4, V1_v5]
  simp only [shapeCast_a_1a_apply]

/-! ## After the encoder's grid -/

theorem W2_v6 : W2 m ρ c (Proc.devRef .tc main_v6) = H m c :=
  (W2_arr m ρ c 7).trans ((EncRegion.final (V1 m ρ) c).trans (encoded_V1 m ρ c))

theorem W2_arg1 : W2 m ρ c (Proc.devRef .tc main_arg1) = A m c main_arg1 :=
  (W2_of_ne m ρ c main_arg1 (by decide)).trans (by
    show StableHlo.after hostOps0 (W0 m ρ c) (Proc.devRef .tc main_arg1) = _
    after_results
    all_goals rfl)
theorem W2_arg2 : W2 m ρ c (Proc.devRef .tc main_arg2) = A m c main_arg2 :=
  (W2_of_ne m ρ c main_arg2 (by decide)).trans (by
    show StableHlo.after hostOps0 (W0 m ρ c) (Proc.devRef .tc main_arg2) = _
    after_results
    all_goals rfl)
theorem W2_arg3 : W2 m ρ c (Proc.devRef .tc main_arg3) = A m c main_arg3 :=
  (W2_of_ne m ρ c main_arg3 (by decide)).trans (by
    show StableHlo.after hostOps0 (W0 m ρ c) (Proc.devRef .tc main_arg3) = _
    after_results
    all_goals rfl)
theorem W2_arg4 : W2 m ρ c (Proc.devRef .tc main_arg4) = A m c main_arg4 :=
  (W2_of_ne m ρ c main_arg4 (by decide)).trans (by
    show StableHlo.after hostOps0 (W0 m ρ c) (Proc.devRef .tc main_arg4) = _
    after_results
    all_goals rfl)
theorem W2_arg11 : W2 m ρ c (Proc.devRef .tc main_arg11) = A m c main_arg11 :=
  (W2_of_ne m ρ c main_arg11 (by decide)).trans (by
    show StableHlo.after hostOps0 (W0 m ρ c) (Proc.devRef .tc main_arg11) = _
    after_results
    all_goals rfl)
theorem W2_arg12 : W2 m ρ c (Proc.devRef .tc main_arg12) = A m c main_arg12 :=
  (W2_of_ne m ρ c main_arg12 (by decide)).trans (by
    show StableHlo.after hostOps0 (W0 m ρ c) (Proc.devRef .tc main_arg12) = _
    after_results
    all_goals rfl)
theorem W2_arg13 : W2 m ρ c (Proc.devRef .tc main_arg13) = A m c main_arg13 :=
  (W2_of_ne m ρ c main_arg13 (by decide)).trans (by
    show StableHlo.after hostOps0 (W0 m ρ c) (Proc.devRef .tc main_arg13) = _
    after_results
    all_goals rfl)
theorem W2_arg14 : W2 m ρ c (Proc.devRef .tc main_arg14) = A m c main_arg14 :=
  (W2_of_ne m ρ c main_arg14 (by decide)).trans (by
    show StableHlo.after hostOps0 (W0 m ρ c) (Proc.devRef .tc main_arg14) = _
    after_results
    all_goals rfl)
theorem W2_arg15 : W2 m ρ c (Proc.devRef .tc main_arg15) = A m c main_arg15 :=
  (W2_of_ne m ρ c main_arg15 (by decide)).trans (by
    show StableHlo.after hostOps0 (W0 m ρ c) (Proc.devRef .tc main_arg15) = _
    after_results
    all_goals rfl)
theorem W2_arg16 : W2 m ρ c (Proc.devRef .tc main_arg16) = A m c main_arg16 :=
  (W2_of_ne m ρ c main_arg16 (by decide)).trans (by
    show StableHlo.after hostOps0 (W0 m ρ c) (Proc.devRef .tc main_arg16) = _
    after_results
    all_goals rfl)

/-! ## The second stretch -/

theorem V3_v8 : V3 m ρ c main_v8 = extractStridedSlice S512x512 ![0, 0] (A m c main_arg11) slices_S1024x512_S512x512_0_0 := by
  show StableHlo.after hostOps1 (W2 m ρ c) (Proc.devRef .tc main_v8) = _
  after_results
  rw [W2_arg11]
  all_goals rfl
theorem V3_v10 : V3 m ρ c main_v10 = extractStridedSlice S512x512 ![512, 0] (A m c main_arg11) slices_S1024x512_S512x512_512_0 := by
  show StableHlo.after hostOps1 (W2 m ρ c) (Proc.devRef .tc main_v10) = _
  after_results
  rw [W2_arg11]
  all_goals rfl
theorem V3_v11 : V3 m ρ c main_v11 = shapeCast S1x512 (A m c main_arg12) shapeCasts_S512_S1x512 := by
  show StableHlo.after hostOps1 (W2 m ρ c) (Proc.devRef .tc main_v11) = _
  after_results
  rw [W2_arg12]
  all_goals rfl
theorem V3_v12 : V3 m ρ c main_v12 = A m c main_arg13 := by
  show StableHlo.after hostOps1 (W2 m ρ c) (Proc.devRef .tc main_v12) = _
  after_results
  rw [W2_arg13]
  all_goals rfl
theorem V3_v13 : V3 m ρ c main_v13 = shapeCast S1x512 (A m c main_arg14) shapeCasts_S512_S1x512 := by
  show StableHlo.after hostOps1 (W2 m ρ c) (Proc.devRef .tc main_v13) = _
  after_results
  rw [W2_arg14]
  all_goals rfl
theorem V3_v14 : V3 m ρ c main_v14 = A m c main_arg15 := by
  show StableHlo.after hostOps1 (W2 m ρ c) (Proc.devRef .tc main_v14) = _
  after_results
  rw [W2_arg15]
  all_goals rfl
theorem V3_v15 : V3 m ρ c main_v15 = shapeCast S1x1 (A m c main_arg16) shapeCasts_S1_S1x1 := by
  show StableHlo.after hostOps1 (W2 m ρ c) (Proc.devRef .tc main_v15) = _
  after_results
  rw [W2_arg16]
  all_goals rfl

/-- Row r of this gathered array is the encoding of the node that entry r of the stacked indices names. -/
theorem V3_v24_apply (r : Fin 200000) (k : Fin 512) :
    V3 m ρ c main_v24 (ix2 r k) = H m c (ix2 (nodeRow (srcAll m c (ix1 r))) k) := by
  show StableHlo.after hostOps1 (W2 m ρ c) (Proc.devRef .tc main_v24) (ix2 r k) = _
  after_results_simp
  repeat (first
    | (rw [unary_result_ne]; rotate_left; decide)
    | (rw [reshape_result_ne]; rotate_left; decide)
    | (rw [binary_result_ne]; rotate_left; decide)
    | (rw [nullary_result_ne]; rotate_left; decide)
    | (rw [ternary_result_ne]; rotate_left; decide))
  rw [W2_v6, W2_arg1, W2_arg3]
  beta_reduce
  rw [show gather_S100000x512_S200000x1_S200000x512_1_0_n_n_0_1_1512
      = rowGatherDims 100000 512 200000 gather_S100000x512_S200000x1_S200000x512_1_0_n_n_0_1_1512_wf from rfl,
    gather_rows_apply (by decide), broadcastInDim_vecCol_apply]
  rfl
/-- Row r of this gathered array is the encoding of the node that entry r of the stacked indices names. -/
theorem V3_v31_apply (r : Fin 200000) (k : Fin 512) :
    V3 m ρ c main_v31 (ix2 r k) = H m c (ix2 (nodeRow (dstAll m c (ix1 r))) k) := by
  show StableHlo.after hostOps1 (W2 m ρ c) (Proc.devRef .tc main_v31) (ix2 r k) = _
  after_results_simp
  repeat (first
    | (rw [unary_result_ne]; rotate_left; decide)
    | (rw [reshape_result_ne]; rotate_left; decide)
    | (rw [binary_result_ne]; rotate_left; decide)
    | (rw [nullary_result_ne]; rotate_left; decide)
    | (rw [ternary_result_ne]; rotate_left; decide))
  rw [W2_v6, W2_arg2, W2_arg4]
  beta_reduce
  rw [show gather_S100000x512_S200000x1_S200000x512_1_0_n_n_0_1_1512
      = rowGatherDims 100000 512 200000 gather_S100000x512_S200000x1_S200000x512_1_0_n_n_0_1_1512_wf from rfl,
    gather_rows_apply (by decide), broadcastInDim_vecCol_apply]
  rfl

/-! ## After the scorer's grid, and the last stretch -/

theorem W4_v32 : W4 m ρ c (Proc.devRef .tc main_v32) = ScoreRegion.scored (V3 m ρ) c :=
  (W4_arr m ρ c 9).trans (ScoreRegion.final (V3 m ρ) c)

/-- The scores of all 200000 stacked edges, with the second stretch read: row r scores the encodings of the nodes
    that entry r of the stacked source and destination indices name. -/
def scoresAll : S200000x1.Idx → EReal :=
  scoreSplit (M := 200000) (V3 m ρ c main_v24) (V3 m ρ c main_v31)
    (extractStridedSlice S512x512 ![0, 0] (A m c main_arg11) slices_S1024x512_S512x512_0_0)
    (extractStridedSlice S512x512 ![512, 0] (A m c main_arg11) slices_S1024x512_S512x512_512_0)
    (fun q => A m c main_arg12 (ix1 q)) (A m c main_arg13) (fun q => A m c main_arg14 (ix1 q))
    (A m c main_arg15) (fun q => A m c main_arg16 (ix1 q))

theorem scored_V3 : ScoreRegion.scored (V3 m ρ) c = scoresAll m ρ c := by
  unfold ScoreRegion.scored scoresAll
  rw [V3_v8, V3_v10, V3_v11, V3_v12, V3_v13, V3_v14, V3_v15]
  simp only [shapeCast_a_1a_apply]

/-- The first result at j: the score of stacked edge j. -/
theorem result_pos (j : Fin 100000) :
    W5 m ρ c (Proc.devRef .tc main_v34) (ix1 j) = scoresAll m ρ c (ix2 (⟨j.val, by omega⟩ : Fin 200000) (0 : Fin 1)) := by
  show StableHlo.after hostOps2 (W4 m ρ c) (Proc.devRef .tc main_v34) (ix1 j) = _
  after_results
  rw [W4_v32, scored_V3]
  show extractStridedSlice S100000 ![0] (shapeCast S200000 (scoresAll m ρ c) shapeCasts_S200000x1_S200000)
    slices_S200000_S100000_0 (ix1 j) = _
  rw [slice_vec_apply 0 _ _ j (⟨j.val, by omega⟩ : Fin 200000) (by simp), shapeCast_colvec_apply]

/-- The second result at j: the score of stacked edge 100000 + j. -/
theorem result_neg (j : Fin 100000) :
    W5 m ρ c (Proc.devRef .tc main_v35) (ix1 j) = scoresAll m ρ c (ix2 (⟨100000 + j.val, by omega⟩ : Fin 200000) (0 : Fin 1)) := by
  show StableHlo.after hostOps2 (W4 m ρ c) (Proc.devRef .tc main_v35) (ix1 j) = _
  after_results
  rw [W4_v32, scored_V3]
  show extractStridedSlice S100000 ![100000] (shapeCast S200000 (scoresAll m ρ c) shapeCasts_S200000x1_S200000)
    slices_S200000_S100000_100000 (ix1 j) = _
  rw [slice_vec_apply 100000 _ _ j (⟨100000 + j.val, by omega⟩ : Fin 200000) rfl, shapeCast_colvec_apply]

end Cert.KernelIdeal.Closed

end
-- ==== Proof.RefValue.lean ====
/-
  The reference program's stages, read as the mathematics. Its encoder is the node encoder applied to all 100000
  rows at once. For each of the two edge sets it gathers the encoded rows its source and destination indices name (a
  negative index counting back from the end, the result clamped into the table), lays the two gathered arrays side by
  side, and applies the scorer in its joined spelling; the scores come back as a vector.
-/
import proofs.«109992_j39737037422592_2_alg».proof.Proof.Gen.ReferenceIdeal.Read
import proofs.«109992_j39737037422592_2_alg».proof.Proof.Spec

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open Cert.LayoutLib Cert.DenseLib Cert.RowsLib Cert.Spec

/-- The reference's encoded array is the encoder of all the rows. -/
theorem enc_eq (x0 : (⟨S100000x512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (x9 : (⟨S512x512, .f32⟩ : BufTy).Contents (Elt Ideal))
    (x10 : (⟨S512, .f32⟩ : BufTy).Contents (Elt Ideal)) :
    Read.val_main_v16 (F := Ideal) x0 x5 x6 x7 x8 x9 x10 = (enc (M := 100000) x0 x5 (fun q => x6 (ix1 q)) x7 (fun q => x8 (ix1 q)) x9 (fun q => x10 (ix1 q))) := by
  simp only [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_call0_v0, Read.val_main_call0_cst, Read.val_main_call1_v0, Read.val_main_call1_cst, Read.val_main_call2_v0, Read.val_main_call2_cst,
    dotGeneral_eq_mm dot_S100000x512_S512x512_S100000x512_1_0_0_1_n_n rfl,
    addf_eq_plus]
  repeat rw [broadcastInDim_eq_rows]
  repeat rw [maximumf_bcast_zero]
  rfl

/-- Row j of the joined array, left of the seam: the encoding of the node the source index names. -/
theorem joined_left_pos (x0 : (⟨S100000x512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (x9 : (⟨S512x512, .f32⟩ : BufTy).Contents (Elt Ideal))
    (x10 : (⟨S512, .f32⟩ : BufTy).Contents (Elt Ideal)) (x1 x2 : (⟨S100000, .i32⟩ : BufTy).Contents (Elt Ideal)) (j : Fin 100000) (k : Fin 512) :
    Read.val_main_v31 (F := Ideal) x0 x1 x2 x5 x6 x7 x8 x9 x10 (ix2 j (Fin.castAdd 512 k))
      = (enc (M := 100000) x0 x5 (fun q => x6 (ix1 q)) x7 (fun q => x8 (ix1 q)) x9 (fun q => x10 (ix1 q))) (ix2 (nodeRow (x1 (ix1 j))) k) := by
  unfold Read.val_main_v31
  rw [concat_cols_left _ _ _ j k (Fin.castAdd 512 k) rfl]
  unfold Read.val_main_v23
  rw [show gather_S100000x512_S100000x1_S100000x512_1_0_n_n_0_1_1512
      = rowGatherDims 100000 512 100000 gather_S100000x512_S100000x1_S100000x512_1_0_n_n_0_1_1512_wf from rfl,
    gather_rows_apply (by decide), enc_eq]
  unfold Read.val_main_v22
  rw [broadcastInDim_vecCol_apply]
  rfl

/-- Right of the seam: the encoding of the node the destination index names. -/
theorem joined_right_pos (x0 : (⟨S100000x512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (x9 : (⟨S512x512, .f32⟩ : BufTy).Contents (Elt Ideal))
    (x10 : (⟨S512, .f32⟩ : BufTy).Contents (Elt Ideal)) (x1 x2 : (⟨S100000, .i32⟩ : BufTy).Contents (Elt Ideal)) (j : Fin 100000) (k : Fin 512) :
    Read.val_main_v31 (F := Ideal) x0 x1 x2 x5 x6 x7 x8 x9 x10 (ix2 j (Fin.natAdd 512 k))
      = (enc (M := 100000) x0 x5 (fun q => x6 (ix1 q)) x7 (fun q => x8 (ix1 q)) x9 (fun q => x10 (ix1 q))) (ix2 (nodeRow (x2 (ix1 j))) k) := by
  unfold Read.val_main_v31
  rw [concat_cols_right _ _ _ j k (Fin.natAdd 512 k) rfl]
  unfold Read.val_main_v30
  rw [show gather_S100000x512_S100000x1_S100000x512_1_0_n_n_0_1_1512
      = rowGatherDims 100000 512 100000 gather_S100000x512_S100000x1_S100000x512_1_0_n_n_0_1_1512_wf from rfl,
    gather_rows_apply (by decide), enc_eq]
  unfold Read.val_main_v29
  rw [broadcastInDim_vecCol_apply]
  rfl

/-- The scores of this edge set are the scorer, in its joined spelling, of the joined array. -/
theorem score_eq_pos (x0 : (⟨S100000x512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (x9 : (⟨S512x512, .f32⟩ : BufTy).Contents (Elt Ideal))
    (x10 : (⟨S512, .f32⟩ : BufTy).Contents (Elt Ideal)) (x1 x2 : (⟨S100000, .i32⟩ : BufTy).Contents (Elt Ideal)) (x11 : (⟨S1024x512, .f32⟩ : BufTy).Contents (Elt Ideal)) (x12 : (⟨S512, .f32⟩ : BufTy).Contents (Elt Ideal))
    (x13 : (⟨S512x512, .f32⟩ : BufTy).Contents (Elt Ideal)) (x14 : (⟨S512, .f32⟩ : BufTy).Contents (Elt Ideal))
    (x15 : (⟨S512x1, .f32⟩ : BufTy).Contents (Elt Ideal)) (x16 : (⟨S1, .f32⟩ : BufTy).Contents (Elt Ideal)) (j : Fin 100000) :
    Read.val_main_v61 (F := Ideal) x0 x1 x2 x5 x6 x7 x8 x9 x10 x11 x12 x13 x14 x15 x16 (ix1 j)
      = scoreJoined (M := 100000) (Read.val_main_v31 (F := Ideal) x0 x1 x2 x5 x6 x7 x8 x9 x10) x11 (fun q => x12 (ix1 q))
          x13 (fun q => x14 (ix1 q)) x15 (fun q => x16 (ix1 q)) (ix2 j (0 : Fin 1)) := by
  unfold Read.val_main_v61
  rw [shapeCast_colvec_apply]
  refine congrFun ?_ (ix2 j (0 : Fin 1))
  simp only [Read.val_main_v47, Read.val_main_v48, Read.val_main_v49, Read.val_main_v50, Read.val_main_v51, Read.val_main_v52, Read.val_main_v53, Read.val_main_v54, Read.val_main_v55, Read.val_main_v56, Read.val_main_v57, Read.val_main_v58, Read.val_main_v59, Read.val_main_v60, Read.val_main_call3_v0, Read.val_main_call3_cst, Read.val_main_call4_v0, Read.val_main_call4_cst,
    dotGeneral_eq_mm dot_S100000x1024_S1024x512_S100000x512_1_0_0_1_n_n rfl,
    dotGeneral_eq_mm dot_S100000x512_S512x512_S100000x512_1_0_0_1_n_n rfl,
    dotGeneral_eq_mm dot_S100000x512_S512x1_S100000x1_1_0_0_1_n_n rfl,
    addf_eq_plus]
  repeat rw [broadcastInDim_eq_rows]
  repeat rw [maximumf_bcast_zero]
  rfl

/-- Row j of the joined array, left of the seam: the encoding of the node the source index names. -/
theorem joined_left_neg (x0 : (⟨S100000x512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (x9 : (⟨S512x512, .f32⟩ : BufTy).Contents (Elt Ideal))
    (x10 : (⟨S512, .f32⟩ : BufTy).Contents (Elt Ideal)) (x3 x4 : (⟨S100000, .i32⟩ : BufTy).Contents (Elt Ideal)) (j : Fin 100000) (k : Fin 512) :
    Read.val_main_v46 (F := Ideal) x0 x3 x4 x5 x6 x7 x8 x9 x10 (ix2 j (Fin.castAdd 512 k))
      = (enc (M := 100000) x0 x5 (fun q => x6 (ix1 q)) x7 (fun q => x8 (ix1 q)) x9 (fun q => x10 (ix1 q))) (ix2 (nodeRow (x3 (ix1 j))) k) := by
  unfold Read.val_main_v46
  rw [concat_cols_left _ _ _ j k (Fin.castAdd 512 k) rfl]
  unfold Read.val_main_v38
  rw [show gather_S100000x512_S100000x1_S100000x512_1_0_n_n_0_1_1512
      = rowGatherDims 100000 512 100000 gather_S100000x512_S100000x1_S100000x512_1_0_n_n_0_1_1512_wf from rfl,
    gather_rows_apply (by decide), enc_eq]
  unfold Read.val_main_v37
  rw [broadcastInDim_vecCol_apply]
  rfl

/-- Right of the seam: the encoding of the node the destination index names. -/
theorem joined_right_neg (x0 : (⟨S100000x512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (x9 : (⟨S512x512, .f32⟩ : BufTy).Contents (Elt Ideal))
    (x10 : (⟨S512, .f32⟩ : BufTy).Contents (Elt Ideal)) (x3 x4 : (⟨S100000, .i32⟩ : BufTy).Contents (Elt Ideal)) (j : Fin 100000) (k : Fin 512) :
    Read.val_main_v46 (F := Ideal) x0 x3 x4 x5 x6 x7 x8 x9 x10 (ix2 j (Fin.natAdd 512 k))
      = (enc (M := 100000) x0 x5 (fun q => x6 (ix1 q)) x7 (fun q => x8 (ix1 q)) x9 (fun q => x10 (ix1 q))) (ix2 (nodeRow (x4 (ix1 j))) k) := by
  unfold Read.val_main_v46
  rw [concat_cols_right _ _ _ j k (Fin.natAdd 512 k) rfl]
  unfold Read.val_main_v45
  rw [show gather_S100000x512_S100000x1_S100000x512_1_0_n_n_0_1_1512
      = rowGatherDims 100000 512 100000 gather_S100000x512_S100000x1_S100000x512_1_0_n_n_0_1_1512_wf from rfl,
    gather_rows_apply (by decide), enc_eq]
  unfold Read.val_main_v44
  rw [broadcastInDim_vecCol_apply]
  rfl

/-- The scores of this edge set are the scorer, in its joined spelling, of the joined array. -/
theorem score_eq_neg (x0 : (⟨S100000x512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (x9 : (⟨S512x512, .f32⟩ : BufTy).Contents (Elt Ideal))
    (x10 : (⟨S512, .f32⟩ : BufTy).Contents (Elt Ideal)) (x3 x4 : (⟨S100000, .i32⟩ : BufTy).Contents (Elt Ideal)) (x11 : (⟨S1024x512, .f32⟩ : BufTy).Contents (Elt Ideal)) (x12 : (⟨S512, .f32⟩ : BufTy).Contents (Elt Ideal))
    (x13 : (⟨S512x512, .f32⟩ : BufTy).Contents (Elt Ideal)) (x14 : (⟨S512, .f32⟩ : BufTy).Contents (Elt Ideal))
    (x15 : (⟨S512x1, .f32⟩ : BufTy).Contents (Elt Ideal)) (x16 : (⟨S1, .f32⟩ : BufTy).Contents (Elt Ideal)) (j : Fin 100000) :
    Read.val_main_v76 (F := Ideal) x0 x3 x4 x5 x6 x7 x8 x9 x10 x11 x12 x13 x14 x15 x16 (ix1 j)
      = scoreJoined (M := 100000) (Read.val_main_v46 (F := Ideal) x0 x3 x4 x5 x6 x7 x8 x9 x10) x11 (fun q => x12 (ix1 q))
          x13 (fun q => x14 (ix1 q)) x15 (fun q => x16 (ix1 q)) (ix2 j (0 : Fin 1)) := by
  unfold Read.val_main_v76
  rw [shapeCast_colvec_apply]
  refine congrFun ?_ (ix2 j (0 : Fin 1))
  simp only [Read.val_main_v62, Read.val_main_v63, Read.val_main_v64, Read.val_main_v65, Read.val_main_v66, Read.val_main_v67, Read.val_main_v68, Read.val_main_v69, Read.val_main_v70, Read.val_main_v71, Read.val_main_v72, Read.val_main_v73, Read.val_main_v74, Read.val_main_v75, Read.val_main_call5_v0, Read.val_main_call5_cst, Read.val_main_call6_v0, Read.val_main_call6_cst,
    dotGeneral_eq_mm dot_S100000x1024_S1024x512_S100000x512_1_0_0_1_n_n rfl,
    dotGeneral_eq_mm dot_S100000x512_S512x512_S100000x512_1_0_0_1_n_n rfl,
    dotGeneral_eq_mm dot_S100000x512_S512x1_S100000x1_1_0_0_1_n_n rfl,
    addf_eq_plus]
  repeat rw [broadcastInDim_eq_rows]
  repeat rw [maximumf_bcast_zero]
  rfl

end Cert.ReferenceIdeal.RefValue

end
-- ==== Proof.Bridge.lean ====
/-
  The two programs compute the same scores. For edge j of an edge set both take the encodings of the two nodes the
  edge's indices name and score the pair; the reference lays the two encodings end to end and multiplies by the whole
  first matrix, the kernel multiplies each by its half of the matrix and adds: the same number, by splitting a sum of
  1024 terms at 512. The kernel stacks the positive and the negative edges (edge j of the negative set is stacked
  edge 100000 + j) and the reference treats the two sets apart; the stacked indices read back each set's own.
-/
import proofs.«109992_j39737037422592_2_alg».proof.Proof.KernelValue
import proofs.«109992_j39737037422592_2_alg».proof.Proof.RefValue

set_option maxRecDepth 16384

noncomputable section

namespace Cert.Bridge

open Idealize.ShloMosaic Idealize.ShloMosaic.TcCoe Idealize.ShloMosaic.ValueIdx Idealize.SL.Sem
open Cert.LayoutLib Cert.DenseLib Cert.RowsLib Cert.Spec
open Cert.KernelIdeal Cert.ReferenceIdeal

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem pos_eq (j : Fin 100000) :
    Cert.KernelIdeal.Gen.W5 m ρ c (Proc.devRef .tc Cert.KernelIdeal.main_v34) (ix1 j)
      = Cert.ReferenceIdeal.Read.val_main_v61 (F := Ideal) (Closed.A m c Cert.KernelIdeal.main_arg0) (Closed.A m c Cert.KernelIdeal.main_arg1) (Closed.A m c Cert.KernelIdeal.main_arg2)
          (Closed.A m c Cert.KernelIdeal.main_arg5) (Closed.A m c Cert.KernelIdeal.main_arg6) (Closed.A m c Cert.KernelIdeal.main_arg7) (Closed.A m c Cert.KernelIdeal.main_arg8) (Closed.A m c Cert.KernelIdeal.main_arg9) (Closed.A m c Cert.KernelIdeal.main_arg10)
          (Closed.A m c Cert.KernelIdeal.main_arg11) (Closed.A m c Cert.KernelIdeal.main_arg12) (Closed.A m c Cert.KernelIdeal.main_arg13) (Closed.A m c Cert.KernelIdeal.main_arg14) (Closed.A m c Cert.KernelIdeal.main_arg15) (Closed.A m c Cert.KernelIdeal.main_arg16) (ix1 j) := by
  rw [Closed.result_pos, RefValue.score_eq_pos]
  unfold Closed.scoresAll
  symm
  refine score_joined_eq_split _ _ _ _ _ _ _ _ _ _ _ j (⟨j.val, by omega⟩ : Fin 200000)
    (fun k => ?_) (fun k => ?_) (fun k q => ?_) (fun k q => ?_) (0 : Fin 1)
  · rw [RefValue.joined_left_pos, Closed.V3_v24_apply]
    have e : Closed.srcAll m c (ix1 (⟨j.val, by omega⟩ : Fin 200000)) = Closed.A m c Cert.KernelIdeal.main_arg1 (ix1 j) := by
      unfold Closed.srcAll
      exact concat_vec_left _ _ _ j _ rfl
    rw [e]
    rfl
  · rw [RefValue.joined_right_pos, Closed.V3_v31_apply]
    have e : Closed.dstAll m c (ix1 (⟨j.val, by omega⟩ : Fin 200000)) = Closed.A m c Cert.KernelIdeal.main_arg2 (ix1 j) := by
      unfold Closed.dstAll
      exact concat_vec_left _ _ _ j _ rfl
    rw [e]
    rfl
  · exact slice2_axis0_apply 0 _ _ k q (Fin.castAdd 512 k) (Nat.zero_add _).symm
  · exact slice2_axis0_apply 512 _ _ k q (Fin.natAdd 512 k) rfl

theorem neg_eq (j : Fin 100000) :
    Cert.KernelIdeal.Gen.W5 m ρ c (Proc.devRef .tc Cert.KernelIdeal.main_v35) (ix1 j)
      = Cert.ReferenceIdeal.Read.val_main_v76 (F := Ideal) (Closed.A m c Cert.KernelIdeal.main_arg0) (Closed.A m c Cert.KernelIdeal.main_arg3) (Closed.A m c Cert.KernelIdeal.main_arg4)
          (Closed.A m c Cert.KernelIdeal.main_arg5) (Closed.A m c Cert.KernelIdeal.main_arg6) (Closed.A m c Cert.KernelIdeal.main_arg7) (Closed.A m c Cert.KernelIdeal.main_arg8) (Closed.A m c Cert.KernelIdeal.main_arg9) (Closed.A m c Cert.KernelIdeal.main_arg10)
          (Closed.A m c Cert.KernelIdeal.main_arg11) (Closed.A m c Cert.KernelIdeal.main_arg12) (Closed.A m c Cert.KernelIdeal.main_arg13) (Closed.A m c Cert.KernelIdeal.main_arg14) (Closed.A m c Cert.KernelIdeal.main_arg15) (Closed.A m c Cert.KernelIdeal.main_arg16) (ix1 j) := by
  rw [Closed.result_neg, RefValue.score_eq_neg]
  unfold Closed.scoresAll
  symm
  refine score_joined_eq_split _ _ _ _ _ _ _ _ _ _ _ j (⟨100000 + j.val, by omega⟩ : Fin 200000)
    (fun k => ?_) (fun k => ?_) (fun k q => ?_) (fun k q => ?_) (0 : Fin 1)
  · rw [RefValue.joined_left_neg, Closed.V3_v24_apply]
    have e : Closed.srcAll m c (ix1 (⟨100000 + j.val, by omega⟩ : Fin 200000)) = Closed.A m c Cert.KernelIdeal.main_arg3 (ix1 j) := by
      unfold Closed.srcAll
      exact concat_vec_right _ _ _ j _ rfl
    rw [e]
    rfl
  · rw [RefValue.joined_right_neg, Closed.V3_v31_apply]
    have e : Closed.dstAll m c (ix1 (⟨100000 + j.val, by omega⟩ : Fin 200000)) = Closed.A m c Cert.KernelIdeal.main_arg4 (ix1 j) := by
      unfold Closed.dstAll
      exact concat_vec_right _ _ _ j _ rfl
    rw [e]
    rfl
  · exact slice2_axis0_apply 0 _ _ k q (Fin.castAdd 512 k) (Nat.zero_add _).symm
  · exact slice2_axis0_apply 512 _ _ k q (Fin.natAdd 512 k) rfl

end Cert.Bridge

end
-- ==== Proof.lean ====
/-
  The certificate of the link predictor: a node encoder (three dense layers with two residual sums) on a grid over the
  100000 nodes, a gather of the encoded rows named by the edge indices, and an edge scorer (three dense layers) on a
  grid over the 200000 stacked edges, against the plain reference that encodes, gathers, joins and scores each edge
  set apart.

  The three frames are the programs' runs with the results dropped. The idealized kernel program is the kernel
  program's own text read over the extended reals, so there is nothing to preserve. The value claim: both runs end
  with, at entry j of each result, the score of the pair of encodings that edge j's indices name; the kernel's run is
  read through its two grids, each of which leaves ONE whole-array function of what it was entered with (a row's
  encoding and a row's score depend on that row alone, so the row blocks of the grids tile it), and through its three
  stretches of host operations; the reference's run is its stages composed. The two scores are one number because
  [s, d] P1 = s P1[:512] + d P1[512:], a sum of 1024 terms split at 512, which needs no finiteness.
-/
import proofs.«109992_j39737037422592_2_alg».proof.Defs
import proofs.«109992_j39737037422592_2_alg».proof.Proof.Gen.Kernel
import proofs.«109992_j39737037422592_2_alg».proof.Proof.Gen.Kernel.Skeleton
import proofs.«109992_j39737037422592_2_alg».proof.Proof.Gen.Kernel.Launch
import proofs.«109992_j39737037422592_2_alg».proof.Proof.Gen.Kernel.Points
import proofs.«109992_j39737037422592_2_alg».proof.Proof.Gen.Kernel.Frame
import proofs.«109992_j39737037422592_2_alg».proof.Proof.Gen.KernelIdeal
import proofs.«109992_j39737037422592_2_alg».proof.Proof.Gen.KernelIdeal.Skeleton
import proofs.«109992_j39737037422592_2_alg».proof.Proof.Gen.KernelIdeal.Launch
import proofs.«109992_j39737037422592_2_alg».proof.Proof.Gen.KernelIdeal.Points
import proofs.«109992_j39737037422592_2_alg».proof.Proof.Gen.KernelIdeal.Frame
import proofs.«109992_j39737037422592_2_alg».proof.Proof.Gen.ReferenceIdeal
import proofs.«109992_j39737037422592_2_alg».proof.Proof.Gen.Pre_finite_inputs
import proofs.«109992_j39737037422592_2_alg».proof.Proof.Gen.ReferenceIdeal.Run
import proofs.«109992_j39737037422592_2_alg».proof.Proof.Gen.ReferenceIdeal.Read
import proofs.«109992_j39737037422592_2_alg».proof.Proof.KernelRun
import proofs.«109992_j39737037422592_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both runs end with equal results: at every entry, the score of the pair of encodings the edge's indices name. -/
theorem algebraic : Cert.algebraic_KernelIdeal_ReferenceIdeal := by
  intro m ρ m' ρ' _ hagree
  refine ⟨fun c => Cert.KernelIdeal.Gen.W5 m ρ c (Proc.devRef .tc Cert.KernelIdeal.main_v34),
    fun c => Cert.KernelIdeal.Gen.W5 m ρ c (Proc.devRef .tc Cert.KernelIdeal.main_v35),
    Cert.KernelIdeal.Whole.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16⟩ := hagree c
    rw [Cert.ReferenceIdeal.Read.val_main_v61_eq, h0, h1, h2, h5, h6, h7, h8, h9, h10, h11, h12, h13, h14, h15, h16]
    funext i
    rw [eq_ix1 i]
    exact (Cert.Bridge.pos_eq m ρ c (i 0)).symm
  · obtain ⟨h0, h1, h2, h3, h4, h5, h6, h7, h8, h9, h10, h11, h12, h13, h14, h15, h16⟩ := hagree c
    rw [Cert.ReferenceIdeal.Read.val_main_v76_eq, h0, h3, h4, h5, h6, h7, h8, h9, h10, h11, h12, h13, h14, h15, h16]
    funext i
    rw [eq_ix1 i]
    exact (Cert.Bridge.neg_eq m ρ c (i 0)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
